-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S640000 .f32) (main_arg2 : FVec F S128x128 .f32) (main_arg3 : FVec F S128x128 .f32) (main_arg4 : IVec S640000 32) (main_arg5 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S640000 : Shape := ⟨1, ![640000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S2000x128 : Shape := ⟨2, ![2000, 128]⟩

abbrev nBuf : Space → Nat
  | .hbm => 25
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S640000, .f32⟩
  | .hbm, ⟨2, _⟩ => ⟨S128x128, .f32⟩
  | .hbm, ⟨3, _⟩ => ⟨S128x128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x1, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S128x128, .f32⟩
  | .hbm, ⟨23, _⟩ => ⟨S128x128, .f32⟩
  | .hbm, ⟨24, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .f32⟩
  | .hbm, ⟨2, _⟩ => ⟨S128x128, .f32⟩
  | .hbm, ⟨3, _⟩ => ⟨S128x128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x1, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S50000x128, .f32⟩
  | .hbm, ⟨23, _⟩ => ⟨S128x128, .f32⟩
  | .hbm, ⟨24, _⟩ => ⟨S50000x128, .f32⟩
  | .hbm, ⟨25, _⟩ => ⟨S_, .f32⟩
  | .hbm, ⟨26, _⟩ => ⟨S_, .f32⟩
  | .hbm, ⟨27, _⟩ => ⟨S50000x128, .f32⟩
  | .hbm, ⟨28, _⟩ => ⟨S50000x128, .i1⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .f32⟩
  | .hbm, ⟨39, _⟩ => ⟨S50000x128, .i1⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  transposes_S128x128_S128x128_1_0 : S128x128.Transposes [1, 0] S128x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer's output, entry by entry, over the extended reals. With `h` the node features, `hn` the neighbour sum and
  `A = W1ᵀ`, `B = W2ᵀ` the two weights already transposed, entry (r, q) of the output is

      lrelu (∑ k, (h r k + hn r k) · A k q) + lrelu (∑ k, (h r k · hn r k) · B k q),

  `lrelu x = if x ≥ 0 then x else c · x` with `c` the f32 nearest 0.01. Row r of the output depends on row r of `h` and
  of `hn` only, so any block of consecutive rows of the output is the same function of the same block of rows of
  `h` and `hn`: the number of rows `n` is a parameter. A product of an n×128 by a 128×128 matrix into a zero
  accumulator, and the same product with no accumulator, are both that sum over `k`.
-/
import Idealize.ShloMosaic.PureOps.Ideal.Laws
import Idealize.ShloMosaic.Lib.ValueIdx
import Idealize.ShloMosaic.Lib.KernelVsHost
import Idealize.ShloMosaic.Lib.StackMember

noncomputable section

namespace Cert.BiInteraction

open Idealize.ShloMosaic Idealize.ShloMosaic.ValueIdx

/-- `x ↦ if x ≥ 0 then x else c · x`, `c` the f32 nearest 0.01, on one extended real. -/
def lrelu (x : Ideal .f32) : Ideal .f32 :=
  Scalar.select (FloatOps.cmpf .oge x (Scalar.ofBits .f32 0x00000000#32)) x (FloatOps.mulf (Scalar.ofBits .f32 0x3C23D70A#32) x)

/-- Entry (r, q) of the output, from row r of `h` and `hn` and column q of the transposed weights. -/
def outAt {n : Nat} (h hn : FVec Ideal ⟨2, ![n, 128]⟩ .f32) (A B : FVec Ideal ⟨2, ![128, 128]⟩ .f32) (r : Fin n) (q : Fin 128) :
    Ideal .f32 :=
  lrelu (∑ k : Fin 128, (h (ix2 r k) + hn (ix2 r k)) * A (ix2 k q))
    + lrelu (∑ k : Fin 128, (h (ix2 r k) * hn (ix2 r k)) * B (ix2 k q))

/-- The output array of `n` rows. -/
def out {n : Nat} (h hn : FVec Ideal ⟨2, ![n, 128]⟩ .f32) (A B : FVec Ideal ⟨2, ![128, 128]⟩ .f32) : FVec Ideal ⟨2, ![n, 128]⟩ .f32 :=
  fun i => outAt h hn A B (i 0) (i 1)

theorem out_ix2 {n : Nat} (h hn : FVec Ideal ⟨2, ![n, 128]⟩ .f32) (A B : FVec Ideal ⟨2, ![128, 128]⟩ .f32) (r : Fin n) (q : Fin 128) :
    out h hn A B (ix2 r q) = outAt h hn A B r q := rfl

/-- Entry (p, q) of the output of one set of arrays is entry (r, q) of the output of another when row p of the first
    `h` and `hn` is row r of the second and column q of the weights agrees: the output reads nothing else. -/
theorem outAt_congr {n n' : Nat} (x0 x1 : FVec Ideal ⟨2, ![n, 128]⟩ .f32) (x2 x3 : FVec Ideal ⟨2, ![128, 128]⟩ .f32)
    (h hn : FVec Ideal ⟨2, ![n', 128]⟩ .f32) (A B : FVec Ideal ⟨2, ![128, 128]⟩ .f32) (p : Fin n) (r : Fin n') (q : Fin 128)
    (e0 : ∀ k : Fin 128, x0 (ix2 p k) = h (ix2 r k)) (e1 : ∀ k : Fin 128, x1 (ix2 p k) = hn (ix2 r k))
    (e2 : ∀ k : Fin 128, x2 (ix2 k q) = A (ix2 k q)) (e3 : ∀ k : Fin 128, x3 (ix2 k q) = B (ix2 k q)) :
    outAt x0 x1 x2 x3 p q = outAt h hn A B r q := by
  unfold outAt
  simp only [e0, e1, e2, e3]

/-- A product into a zero accumulator, read at (r, q): the sum over the contracted coordinate. -/
theorem matmul_zero_ix2 {n : Nat} {φ₁ φ₂ : FTy} (L : FVec Ideal ⟨2, ![n, 128]⟩ φ₁) (R : FVec Ideal ⟨2, ![128, 128]⟩ φ₂)
    (r : Fin n) (q : Fin 128) :
    matmul (DotDims.plain n 128 128) none L R (constant ⟨2, ![n, 128]⟩ .f32 0x00000000#32) (ix2 r q)
      = ∑ k : Fin 128, L (ix2 r k) * R (ix2 k q) :=
  (congrFun (matmul_zero_eq_dotGeneral (DotDims.plain n 128 128) none L R) (ix2 r q)).trans
    (StackMember.dotGeneral_plain_apply none L R r q)

/-- The host's product, read at (r, q): the same sum. -/
theorem dot_ix2 {n : Nat} {φ₁ φ₂ : FTy} (L : FVec Ideal ⟨2, ![n, 128]⟩ φ₁) (R : FVec Ideal ⟨2, ![128, 128]⟩ φ₂)
    (r : Fin n) (q : Fin 128) :
    Host.dotGeneral (DotDims.plain n 128 128) none L R (ix2 r q) = ∑ k : Fin 128, L (ix2 r k) * R (ix2 k q) :=
  StackMember.dotGeneral_plain_apply none L R r q

end Cert.BiInteraction

end
-- ==== Proof.KernelPayload.lean ====
/-
  The kernel body's stored value is the layer's output on one block of rows. The body loads a 2000-row block of `h`
  and of the neighbour sum and the two transposed weights whole, rounds the sum and the product of the two blocks and
  the weights to bf16 (no change over the extended reals), multiplies each by its weight into a zero accumulator,
  passes both products through `x ↦ if x ≥ 0 then x else c · x` and stores their sum: entry (p, q) of the stored block is
  `lrelu (∑ k, (x0 p k + x1 p k) · x2 k q) + lrelu (∑ k, (x0 p k · x1 p k) · x3 k q)`, the specification at 2000 rows.
-/
import proofs.«144466_j84756884619934_1_alg».proof.Proof.Gen.KernelIdeal.Skeleton
import proofs.«144466_j84756884619934_1_alg».proof.Proof.Spec
import Idealize.ShloMosaic.Lib.Pipeline.Value

noncomputable section

namespace Cert.KernelIdeal.Payload

open Cert.KernelIdeal Cert.KernelIdeal.Gen Idealize.ShloMosaic Idealize.ShloMosaic.ValueIdx Cert.BiInteraction

/-- The body's matrix product into the zero splat, at entry (p, q): the sum over the contracted coordinate (the printed
    dimension numbers are the plain rows-by-columns ones). -/
theorem product_at (L : FVec Ideal S2000x128 .bf16) (R : FVec Ideal S128x128 .bf16) (p : Fin 2000) (q : Fin 128) :
    matmul dot_S2000x128_S128x128_S2000x128_1_0_0_1_n_n none L R (constant S2000x128 .f32 0x00000000#32) (ix2 p q)
      = ∑ k : Fin 128, L (ix2 p k) * R (ix2 k q) :=
  matmul_zero_ix2 (n := 2000) L R p q

/-- The stored block is the specification's output of the loaded blocks. -/
theorem pay_eq (x0 x1 : Vec Ideal S2000x128 .f32) (x2 x3 : Vec Ideal S128x128 .f32) :
    k0_pay1 x0 x1 x2 x3 = out (n := 2000) x0 x1 x2 x3 := by
  funext i
  obtain ⟨p, q, rfl⟩ : ∃ (p : Fin 2000) (q : Fin 128), i = ix2 p q := ⟨i 0, i 1, eq_ix2 i⟩
  rw [out_ix2]
  unfold k0_pay1
  simp only [shapeCast_self]
  show lrelu (matmul dot_S2000x128_S128x128_S2000x128_1_0_0_1_n_n none (truncf .bf16 (addf x0 x1) bitsLt_bf16_f32)
        (truncf .bf16 x2 bitsLt_bf16_f32) (constant S2000x128 .f32 0x00000000#32) (ix2 p q))
      + lrelu (matmul dot_S2000x128_S128x128_S2000x128_1_0_0_1_n_n none (truncf .bf16 (mulf x0 x1) bitsLt_bf16_f32)
        (truncf .bf16 x3 bitsLt_bf16_f32) (constant S2000x128 .f32 0x00000000#32) (ix2 p q)) = _
  rw [product_at, product_at]
  rfl

end Cert.KernelIdeal.Payload

end
-- ==== Proof.KernelBlocks.lean ====
/-
  From blocks to the array. The kernel runs at 25 grid points; at point `t` it is given rows 2000·t … 2000·t + 1999 of
  `h` and of the neighbour sum and the two transposed weights whole, and writes rows 2000·t … 2000·t + 1999 of the output.
  What it writes is the layer's output on that block of rows (the payload), and the layer's output on a block of rows
  is that block of rows of the layer's output on the whole arrays (a row of the output reads only the same row of
  `h` and the neighbour sum). The 25 blocks cover the 50000 rows — row `r` lies in block `r / 2000` — so after the run the
  output array is the layer's output of the arrays the region was entered with; the neighbour sum's own array, which
  the region only reads, is as the host operations before the region left it.
-/
import proofs.«144466_j84756884619934_1_alg».proof.Proof.Gen.KernelIdeal.Value
import proofs.«144466_j84756884619934_1_alg».proof.Proof.KernelPayload

noncomputable section

namespace Cert.KernelIdeal.Blocks

open Cert.KernelIdeal Cert.KernelIdeal.Gen Idealize.ShloMosaic Idealize.ShloMosaic.TcCoe Idealize.SL.Sem
open Idealize.ShloMosaic.ValueIdx Cert.BiInteraction Cert.KernelIdeal.Payload
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 25 points: the blocks of `h`, of the neighbour sum and of the output are block
    (t, 0) of their arrays, the weights' block is block (0, 0) — the whole array. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 25 := lt_of_lt_of_eq t.isLt N_0

/-- Row `p` of block `t` is row `2000·t + p` of the array. -/
def row (t : Fin cfg0.N) (p : Fin 2000) : Fin 50000 := ⟨t.val * 2000 + p.val, by have := point_lt t; have := p.isLt; omega⟩

/-- The block of `h` at point `t`, read at (p, k): `h` at (2000·t + p, k). -/
theorem read_h (c : Dev nD) (t : Fin cfg0.N) (p : Fin 2000) (k : Fin 128) :
    iblk m c 0 t (ix2 p k) = V m c main_arg0 (ix2 (row t p) k) := by
  show V m c main_arg0 (((cfg0.win 0).blk t).view.emb (ix2 p k)) = V m c main_arg0 (ix2 (row t p) k)
  refine congrArg _ (funext fun a => Fin.ext ?_)
  obtain ⟨e00, e01, -⟩ := index_maps t
  match a with
  | ⟨0, _⟩ => show win0_0.index t (0 : Fin 2) * 2000 + 1 * p.val = t.val * 2000 + p.val; omega
  | ⟨1, _⟩ => show win0_0.index t (1 : Fin 2) * 128 + 1 * k.val = k.val; omega

/-- The block of the neighbour sum at point `t`, read at (p, k): the neighbour sum at (2000·t + p, k). -/
theorem read_hn (c : Dev nD) (t : Fin cfg0.N) (p : Fin 2000) (k : Fin 128) :
    iblk m c 1 t (ix2 p k) = V m c main_v12 (ix2 (row t p) k) := by
  show V m c main_v12 (((cfg0.win 1).blk t).view.emb (ix2 p k)) = V m c main_v12 (ix2 (row t p) k)
  refine congrArg _ (funext fun a => Fin.ext ?_)
  obtain ⟨-, -, e10, e11, -⟩ := index_maps t
  match a with
  | ⟨0, _⟩ => show win0_1.index t (0 : Fin 2) * 2000 + 1 * p.val = t.val * 2000 + p.val; omega
  | ⟨1, _⟩ => show win0_1.index t (1 : Fin 2) * 128 + 1 * k.val = k.val; omega

/-- The first weight's block at any point is the whole transposed weight. -/
theorem read_w1 (c : Dev nD) (t : Fin cfg0.N) (k q : Fin 128) :
    iblk m c 2 t (ix2 k q) = V m c main_v13 (ix2 k q) := by
  show V m c main_v13 (((cfg0.win 2).blk t).view.emb (ix2 k q)) = V m c main_v13 (ix2 k q)
  refine congrArg _ (funext fun a => Fin.ext ?_)
  obtain ⟨-, -, -, -, e20, e21, -⟩ := index_maps t
  match a with
  | ⟨0, _⟩ => show win0_2.index t (0 : Fin 2) * 128 + 1 * k.val = k.val; omega
  | ⟨1, _⟩ => show win0_2.index t (1 : Fin 2) * 128 + 1 * q.val = q.val; omega

/-- The second weight's block at any point is the whole transposed weight. -/
theorem read_w2 (c : Dev nD) (t : Fin cfg0.N) (k q : Fin 128) :
    iblk m c 3 t (ix2 k q) = V m c main_v14 (ix2 k q) := by
  show V m c main_v14 (((cfg0.win 3).blk t).view.emb (ix2 k q)) = V m c main_v14 (ix2 k q)
  refine congrArg _ (funext fun a => Fin.ext ?_)
  obtain ⟨-, -, -, -, -, -, e30, e31, -⟩ := index_maps t
  match a with
  | ⟨0, _⟩ => show win0_3.index t (0 : Fin 2) * 128 + 1 * k.val = k.val; omega
  | ⟨1, _⟩ => show win0_3.index t (1 : Fin 2) * 128 + 1 * q.val = q.val; omega

/-- The output array where covered: the layer's output of `h`, the neighbour sum and the transposed weights as the
    region finds them. -/
abbrev result (c : Dev nD) : FVec Ideal S50000x128 .f32 :=
  out (n := 50000) (V m c main_arg0) (V m c main_v12) (V m c main_v13) (V m c main_v14)

/-- WHAT POINT `t` WRITES BACK is block `t` of the layer's output of the whole arrays. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S2000x128) zero_offsets, View.ld_unit_zero (S := S128x128) zero_offsets]
  rw [pay_eq]
  obtain ⟨-, -, -, -, -, -, -, -, e40, e41⟩ := index_maps t
  funext j
  show outAt (n := 2000) (iblk m c 0 t) (iblk m c 1 t) (iblk m c 2 t) (iblk m c 3 t) (j 0) (j 1)
      = outAt (n := 50000) (V m c main_arg0) (V m c main_v12) (V m c main_v13) (V m c main_v14)
          ((((cfg0.win 4).blk t).view.emb j) 0) ((((cfg0.win 4).blk t).view.emb j) 1)
  have r0 : (((cfg0.win 4).blk t).view.emb j) 0 = row t (j 0) :=
    Fin.ext (by show win0_4.index t (0 : Fin 2) * 2000 + 1 * (j 0).val = t.val * 2000 + (j 0).val; omega)
  have r1 : (((cfg0.win 4).blk t).view.emb j) 1 = j 1 :=
    Fin.ext (by show win0_4.index t (1 : Fin 2) * 128 + 1 * (j 1).val = (j 1).val; omega)
  rw [r0, r1]
  exact outAt_congr (iblk m c 0 t) (iblk m c 1 t) (iblk m c 2 t) (iblk m c 3 t)
    (V m c main_arg0) (V m c main_v12) (V m c main_v13) (V m c main_v14) (j 0) (row t (j 0)) (j 1)
    (fun k => read_h m c t (j 0) k) (fun k => read_hn m c t (j 0) k) (fun k => read_w1 m c t k (j 1)) (fun k => read_w2 m c t k (j 1))

/-- An index of the output array is in point `t`'s block iff each coordinate is in the block's range on its axis. -/
theorem mem_blk (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v15).slice (win0_4.rect t)).set ↔ _
  rw [View.set_slice_whole, Rect.mem_set_unit]
  exact Iff.rfl

/-- Every index of the output array is in some point's block: row `r` in block `r / 2000`. -/
theorem covered (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_4 _, ?_⟩
  rw [mem_blk]
  obtain ⟨-, -, -, -, -, -, -, -, e40, e41⟩ := index_maps ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e40]; show (i 0).val / 2000 * 2000 ≤ (i 0).val ∧ (i 0).val < (i 0).val / 2000 * 2000 + 2000; omega
  | ⟨1, _⟩ =>
    show win0_4.index _ (1 : Fin 2) * 128 ≤ (i 1).val ∧ (i 1).val < win0_4.index _ (1 : Fin 2) * 128 + 128
    rw [e41]; omega

/-- THE OUTPUT ARRAY after the run: the layer's output of the arrays the region was entered with. -/
theorem final (c : Dev nD) : (dats m 0 c).arrAt 4 cfg0.N = result m c :=
  (dats m 0 c).arrAt_eq_of_cover 4 (result m c) (fun t _ => flushed_eq m c t) covered

/-- After the frame run the neighbour sum's array — input window 1's, staged and never written back — is as the region
    found it. -/
theorem kept_hn (r : PUnit × MemSt nD τ sig (Elt Ideal)) (h : Pipeline.FramePost cfgs (dats m) 0 (V m) r) (c : Dev nD) :
    r.2.mem ((c : Thread nD τ).loc main_v12) = V m c main_v12 :=
  ((h c).1 1).trans (((dats m 0 c).arrAt_in 1 rfl _).trans (A_eq m c 1))

/-- The frame run re-posted: the first result at the region-entry contents of its array, the second at the layer's
    output of the region-entry arrays, the arguments unchanged. -/
theorem run : θ_run defs (onTc (τ := τ) (main (F := Ideal))) ⟨m, fun _ => 0, ρ⟩ fun r => ∀ c : Dev nD,
      r.2.mem ((c : Thread nD τ).loc main_v12) = V m c main_v12
      ∧ r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨kept_hn m r h c, (Value.post4 m r h c).trans (final m c),
      Value.kept_main_arg0 m r h c, Value.kept_main_arg1 m r h c, Value.kept_main_arg2 m r h c,
      Value.kept_main_arg3 m r h c, Value.kept_main_arg4 m r h c, Value.kept_main_arg5 m r h c⟩)
    (run_main m ρ)

end Cert.KernelIdeal.Blocks

end
-- ==== Proof.KernelHost.lean ====
/-
  What the kernel program's host operations leave for the region. Before its one region the program computes the
  neighbour sum (gather the source rows of `h`, scale row `e` by `w e`, add into row `dst e` of a zero array) and
  transposes the two weights; the region then finds `h` as launched, the neighbour sum in the second window's array
  and the transposed weights in the third and fourth. The gather and the scatter-add are never opened: the neighbour
  sum is carried as one term of the arguments.
-/
import proofs.«144466_j84756884619934_1_alg».proof.Proof.Gen.KernelIdeal.Frame
import Idealize.ShloMosaic.Lib.StableHlo.Run

noncomputable section

namespace Cert.KernelIdeal.HostPart

open Cert.KernelIdeal Cert.KernelIdeal.Gen Idealize.ShloMosaic Idealize.ShloMosaic.TcCoe Idealize.SL.Sem Idealize.ShloMosaic.StableHlo

variable {F : FTy → Type} [FloatOps F]

/-- The neighbour sum, as the kernel program's host operations spell it. -/
def neighbourSum (h : FVec F S50000x128 .f32) (w : FVec F S640000 .f32) (src dst : IVec S640000 32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf
      (Host.gather gather_S50000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src)))
      (broadcastInDim S640000x128 ![0, 1] bcast_S640000x1_S640000x128_0_1 (broadcastInDim S640000x1 ![0] bcast_S640000_S640000x1_0 w)))

/-- A weight transposed. -/
def transposed (W : FVec F S128x128 .f32) : FVec F S128x128 .f32 :=
  transpose S128x128 [1, 0] W transposes_S128x128_S128x128_1_0

variable (m : (ℓ : Loc nD τ sig) → Buf (Elt F) ℓ)

/-- The region finds the neighbour sum of the arguments in the second window's array. -/
theorem V_hn (c : Dev nD) :
    (V m c main_v12 : FVec F S50000x128 .f32)
      = neighbourSum (m ((c : Thread nD τ).loc main_arg0)) (m ((c : Thread nD τ).loc main_arg1))
          (m ((c : Thread nD τ).loc main_arg4)) (m ((c : Thread nD τ).loc main_arg5)) := by
  unfold neighbourSum
  dsimp only [Gen.V, Gen.hostOps0]
  after_results

/-- The region finds the first weight transposed in the third window's array. -/
theorem V_w1 (c : Dev nD) :
    (V m c main_v13 : FVec F S128x128 .f32) = transposed (m ((c : Thread nD τ).loc main_arg2)) := by
  unfold transposed
  dsimp only [Gen.V, Gen.hostOps0]
  after_results

/-- The region finds the second weight transposed in the fourth window's array. -/
theorem V_w2 (c : Dev nD) :
    (V m c main_v14 : FVec F S128x128 .f32) = transposed (m ((c : Thread nD τ).loc main_arg3)) := by
  unfold transposed
  dsimp only [Gen.V, Gen.hostOps0]
  after_results

end Cert.KernelIdeal.HostPart

end
-- ==== Proof.RefRun.lean ====
/-
  The reference program's run, read back. Its @main is a straight line of thirty-nine host operations once the two
  calls of `leaky_relu` (and the `_where` each makes) are written out over the buffers of their call records:
  sixteen operations gather the source rows of `h`, scale row `e` by the edge weight `w e` and add it into row
  `dst e` of a zero array (the neighbour sum `hn`); then `(h + hn) · W1ᵀ` and `(h * hn) · W2ᵀ`, each through
  `x ↦ if x ≥ 0 then x else 0.01 · x`, are added. Every weakly fair execution terminates with the first result at
  `neighbourSum` of the arguments and the second at `biInteraction` of `h`, that neighbour sum and the two weights,
  the arguments unchanged.
-/
import proofs.«144466_j84756884619934_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The neighbour sum: row `src e` of `h` (a negative `src e` counted from the end, as jnp indexes), times `w e`,
    added into row `dst e` of a zero array, over all edges `e`. -/
def neighbourSum (h : FVec F S50000x128 .f32) (w : FVec F S640000 .f32) (src dst : IVec S640000 32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf
      (Host.gather gather_S50000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src)))
      (broadcastInDim S640000x128 ![0, 1] bcast_S640000x1_S640000x128_0_1 (broadcastInDim S640000x1 ![0] bcast_S640000_S640000x1_0 w)))

/-- `x ↦ if x ≥ 0 then x else slope · x`, entry by entry, as the reference's `leaky_relu` spells it. -/
def leaky (x : FVec F S50000x128 .f32) (slope : FVec F S_ .f32) : FVec F S50000x128 .f32 :=
  select (cmpf .oge x (broadcastInDim S50000x128 ![] bcast_S_S50000x128 (constant S_ .f32 0x00000000#32))) x
    (mulf (broadcastInDim S50000x128 ![] bcast_S_S50000x128 (id slope)) x)

/-- The layer's output from `h`, the neighbour sum and the two weights:
    `leaky ((h + hn) · W1ᵀ) + leaky ((h * hn) · W2ᵀ)`. -/
def biInteraction (h hn : FVec F S50000x128 .f32) (W1 W2 : FVec F S128x128 .f32) : FVec F S50000x128 .f32 :=
  addf
    (leaky (Host.dotGeneral dot_S50000x128_S128x128_S50000x128_1_0_0_1_n_n none (addf h hn)
      (transpose S128x128 [1, 0] W1 transposes_S128x128_S128x128_1_0)) (constant S_ .f32 0x3C23D70A#32))
    (leaky (Host.dotGeneral dot_S50000x128_S128x128_S50000x128_1_0_0_1_n_n none (mulf h hn)
      (transpose S128x128 [1, 0] W2 transposes_S128x128_S128x128_1_0)) (constant S_ .f32 0x3C23D70A#32))

/-- @main's thirty-nine operations, in order, each call of `leaky_relu` written out over its record's buffers: the
    zero, its broadcast, the comparison, the slope converted to its own type, its broadcast, the product, and
    `_where`'s select. -/
abbrev ops : List (HloOp τ sig (Elt F)) :=
  [ nullary main_c (constantI S_ 32 0#32),
    unary main_c main_v0 (broadcastInDim S640000 ![] bcast_S_S640000),
    binary main_arg4 main_v0 main_v1 (cmpi .slt),
    nullary main_c_0 (constantI S_ 32 50000#32),
    unary main_c_0 main_v2 (broadcastInDim S640000 ![] bcast_S_S640000),
    binary main_arg4 main_v2 main_v3 addi,
    ternary main_v1 main_v3 main_arg4 main_v4 select,
    unary main_v4 main_v5 (broadcastInDim S640000x1 ![0] bcast_S640000_S640000x1_0),
    binary main_arg0 main_v5 main_v6 (fun x i => Host.gather gather_S50000x128_S640000x1_S640000x128_1_0_n_n_0_1_1128 x i),
    unary main_arg1 main_v7 (broadcastInDim S640000x1 ![0] bcast_S640000_S640000x1_0),
    unary main_v7 main_v8 (broadcastInDim S640000x128 ![0, 1] bcast_S640000x1_S640000x128_0_1),
    binary main_v6 main_v8 main_v9 mulf,
    nullary main_cst (constant S_ .f32 0x00000000#32),
    unary main_cst main_v10 (broadcastInDim S50000x128 ![] bcast_S_S50000x128),
    unary main_arg5 main_v11 (broadcastInDim S640000x1 ![0] bcast_S640000_S640000x1_0),
    ternary main_v10 main_v11 main_v9 main_v12 (fun x i u => Host.scatterAdd scatter_S50000x128_S640000x1_S640000x128_1_0_0_1 x i u),
    binary main_arg0 main_v12 main_v13 addf,
    unary main_arg2 main_v14 (transpose S128x128 [1, 0] · transposes_S128x128_S128x128_1_0),
    binary main_v13 main_v14 main_v15 (fun l r => Host.dotGeneral dot_S50000x128_S128x128_S50000x128_1_0_0_1_n_n none l r),
    nullary main_cst_1 (constant S_ .f32 0x3C23D70A#32),
    TRef.nullary main_call0.cst (constant S_ .f32 0x00000000#32),
    TRef.unary main_call0.cst main_call0.v0 (broadcastInDim S50000x128 ![] bcast_S_S50000x128),
    TRef.binary (.of main_v15) main_call0.v0 main_call0.v1 (cmpf .oge),
    TRef.unary (.of main_cst_1) main_call0.v2 id,
    TRef.unary main_call0.v2 main_call0.v3 (broadcastInDim S50000x128 ![] bcast_S_S50000x128),
    TRef.binary main_call0.v3 (.of main_v15) main_call0.v4 mulf,
    TRef.ternary main_call0.v1 (.of main_v15) main_call0.v4 main_call0.call0.v0 select,
    binary main_arg0 main_v12 main_v17 mulf,
    unary main_arg3 main_v18 (transpose S128x128 [1, 0] · transposes_S128x128_S128x128_1_0),
    binary main_v17 main_v18 main_v19 (fun l r => Host.dotGeneral dot_S50000x128_S128x128_S50000x128_1_0_0_1_n_n none l r),
    nullary main_cst_2 (constant S_ .f32 0x3C23D70A#32),
    TRef.nullary main_call1.cst (constant S_ .f32 0x00000000#32),
    TRef.unary main_call1.cst main_call1.v0 (broadcastInDim S50000x128 ![] bcast_S_S50000x128),
    TRef.binary (.of main_v19) main_call1.v0 main_call1.v1 (cmpf .oge),
    TRef.unary (.of main_cst_2) main_call1.v2 id,
    TRef.unary main_call1.v2 main_call1.v3 (broadcastInDim S50000x128 ![] bcast_S_S50000x128),
    TRef.binary main_call1.v3 (.of main_v19) main_call1.v4 mulf,
    TRef.ternary main_call1.v1 (.of main_v19) main_call1.v4 main_call1.call0.v0 select,
    binary main_v16 main_v20 main_v21 addf ]

set_option maxRecDepth 1024 in
/-- @main is that straight line: the two functions' definitions unfolded at their calls, both sides are one chain of
    host steps once the sequencing is reassociated. -/
theorem main_eq (c : Dev nD) : main (F := F) c = seq ops := by
  simp only [main, fn_leaky_relu.body, fn_where.body, seq, bind_assoc, pure_bind]
  rfl

attribute [local irreducible] Host.gather Host.scatterAdd transpose in
set_option maxRecDepth 8192 in
/-- After the operations, the first result's buffer holds the neighbour sum of the arguments: the fold unrolled, each
    operation's result read at the buffer it writes. The gather, the scatter-add and the transposes are
    kept folded: the equation never looks inside them. -/
theorem hn_eq (V : Valuation τ sig (Elt F)) :
    after ops V (main_v12 : DevRef τ sig)
      = neighbourSum (V (main_arg0 : DevRef τ sig)) (V (main_arg1 : DevRef τ sig)) (V (main_arg4 : DevRef τ sig)) (V (main_arg5 : DevRef τ sig)) := by
  simp only [after_cons, after_nil]
  rfl

attribute [local irreducible] Host.gather Host.scatterAdd transpose in
set_option maxRecDepth 8192 in
/-- … and the second result's buffer the layer's output of `h`, that neighbour sum and the two weights. -/
theorem out_eq (V : Valuation τ sig (Elt F)) :
    after ops V (main_v21 : DevRef τ sig)
      = biInteraction (V (main_arg0 : DevRef τ sig))
          (neighbourSum (V (main_arg0 : DevRef τ sig)) (V (main_arg1 : DevRef τ sig)) (V (main_arg4 : DevRef τ sig)) (V (main_arg5 : DevRef τ sig)))
          (V (main_arg2 : DevRef τ sig)) (V (main_arg3 : DevRef τ sig)) := by
  simp only [after_cons, after_nil]
  rfl

/-- No operation writes an argument's buffer: after them it holds what it held. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    binary_bufs_sub .., nullary_bufs_sub ..,
    nullary_bufs_sub .., unary_bufs_sub .., binary_bufs_sub .., unary_bufs_sub .., unary_bufs_sub .., binary_bufs_sub .., ternary_bufs_sub ..,
    binary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    binary_bufs_sub ..⟩

/-- For any float values, from any memory with zero counters: every weakly fair execution of @main terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read at the two results and the six arguments: the first result is the neighbour sum of the arguments as
    launched, the second the layer's output of `h`, that sum and the two weights; the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = neighbourSum (m ((c.tc : Thread nD τ).loc main_arg0)) (m ((c.tc : Thread nD τ).loc main_arg1))
              (m ((c.tc : Thread nD τ).loc main_arg4)) (m ((c.tc : Thread nD τ).loc main_arg5))
      ∧ r.2.mem ((c.tc : Thread nD τ).loc main_v21)
          = biInteraction (m ((c.tc : Thread nD τ).loc main_arg0))
              (neighbourSum (m ((c.tc : Thread nD τ).loc main_arg0)) (m ((c.tc : Thread nD τ).loc main_arg1))
                (m ((c.tc : Thread nD τ).loc main_arg4)) (m ((c.tc : Thread nD τ).loc main_arg5)))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c main_v12).trans (hn_eq _), (h c main_v21).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.RefRun

end
-- ==== Proof.RefValue.lean ====
/-
  The reference's second result is the specification. Its term is
  `leaky ((h + hn) · W1ᵀ) + leaky ((h * hn) · W2ᵀ)` over whole 50000-row arrays, each product jnp's matrix product with no
  accumulator: at entry (r, q) the products are the sums over `k` of row r of the left factor against column q of the
  transposed weight, and `leaky` is `lrelu` entry by entry — the specification's entry (r, q) at 50000 rows, with the
  transposed weights as its two weight arguments.
-/
import proofs.«144466_j84756884619934_1_alg».proof.Proof.RefRun
import proofs.«144466_j84756884619934_1_alg».proof.Proof.Spec

noncomputable section

namespace Cert.ReferenceIdeal.RefValue

open Cert.ReferenceIdeal Cert.ReferenceIdeal.Gen Cert.ReferenceIdeal.RefRun Idealize.ShloMosaic Idealize.ShloMosaic.ValueIdx Cert.BiInteraction

/-- The reference's matrix product at entry (r, q): the sum over the contracted coordinate (the printed dimension
    numbers are the plain rows-by-columns ones). -/
theorem product_at (L : FVec Ideal S50000x128 .f32) (R : FVec Ideal S128x128 .f32) (r : Fin 50000) (q : Fin 128) :
    Host.dotGeneral dot_S50000x128_S128x128_S50000x128_1_0_0_1_n_n none L R (ix2 r q)
      = ∑ k : Fin 128, L (ix2 r k) * R (ix2 k q) :=
  dot_ix2 (n := 50000) L R r q

/-- The reference's output term is the specification's output of `h`, the neighbour sum and the transposed weights. -/
theorem biInteraction_eq (h hn : FVec Ideal S50000x128 .f32) (W1 W2 : FVec Ideal S128x128 .f32) :
    biInteraction h hn W1 W2
      = out (n := 50000) h hn (transpose S128x128 [1, 0] W1 transposes_S128x128_S128x128_1_0)
          (transpose S128x128 [1, 0] W2 transposes_S128x128_S128x128_1_0) := by
  funext i
  obtain ⟨r, q, rfl⟩ : ∃ (r : Fin 50000) (q : Fin 128), i = ix2 r q := ⟨i 0, i 1, eq_ix2 i⟩
  rw [out_ix2]
  unfold biInteraction
  show lrelu (Host.dotGeneral dot_S50000x128_S128x128_S50000x128_1_0_0_1_n_n none (addf h hn)
        (transpose S128x128 [1, 0] W1 transposes_S128x128_S128x128_1_0) (ix2 r q))
      + lrelu (Host.dotGeneral dot_S50000x128_S128x128_S50000x128_1_0_0_1_n_n none (mulf h hn)
        (transpose S128x128 [1, 0] W2 transposes_S128x128_S128x128_1_0) (ix2 r q)) = _
  rw [product_at, product_at]
  rfl

end Cert.ReferenceIdeal.RefValue

end
-- ==== Proof.Bridge.lean ====
/-
  The two programs meet. Both compute the neighbour sum by the same host operations on the same arguments, so the two
  terms are one (each program states its own copy of the shapes and dimension numbers; the copies are equal), and both
  transpose the weights the same way. The kernel's output array is the specification's output of `h` as launched, that
  neighbour sum and the transposed weights — and so is the reference's second result.
-/
import proofs.«144466_j84756884619934_1_alg».proof.Proof.KernelBlocks
import proofs.«144466_j84756884619934_1_alg».proof.Proof.KernelHost
import proofs.«144466_j84756884619934_1_alg».proof.Proof.RefValue

noncomputable section

namespace Cert.Bridge

open Idealize.ShloMosaic Idealize.ShloMosaic.TcCoe Idealize.SL.Sem Cert.BiInteraction

attribute [local irreducible] Host.gather Host.scatterAdd in
/-- The reference's neighbour sum and the kernel program's are the same term of the arguments. -/
theorem neighbourSum_same {F : FTy → Type} [FloatOps F] (h : FVec F Cert.KernelIdeal.S50000x128 .f32)
    (w : FVec F Cert.KernelIdeal.S640000 .f32) (src dst : IVec Cert.KernelIdeal.S640000 32) :
    Cert.ReferenceIdeal.RefRun.neighbourSum h w src dst = Cert.KernelIdeal.HostPart.neighbourSum h w src dst := rfl

/-- The reference's transposed weight and the kernel program's are the same term. -/
theorem transposed_same {F : FTy → Type} [FloatOps F] (W : FVec F Cert.KernelIdeal.S128x128 .f32) :
    transpose Cert.ReferenceIdeal.S128x128 [1, 0] W Cert.ReferenceIdeal.Gen.transposes_S128x128_S128x128_1_0
      = Cert.KernelIdeal.HostPart.transposed W := rfl

open Cert.KernelIdeal Cert.KernelIdeal.Gen in
/-- The kernel's output array after the run, as a function of the launch arguments: the specification's output of
    `h`, the neighbour sum and the transposed weights. -/
theorem result_eq (m : (ℓ : Loc nD τ sig) → Buf (Elt Ideal) ℓ) (c : Dev nD) :
    Cert.KernelIdeal.Blocks.result m c
      = out (n := 50000) (m ((c : Thread nD τ).loc main_arg0))
          (Cert.KernelIdeal.HostPart.neighbourSum (m ((c : Thread nD τ).loc main_arg0)) (m ((c : Thread nD τ).loc main_arg1))
            (m ((c : Thread nD τ).loc main_arg4)) (m ((c : Thread nD τ).loc main_arg5)))
          (Cert.KernelIdeal.HostPart.transposed (m ((c : Thread nD τ).loc main_arg2)))
          (Cert.KernelIdeal.HostPart.transposed (m ((c : Thread nD τ).loc main_arg3))) := by
  show out (n := 50000) (V m c main_arg0) (V m c main_v12) (V m c main_v13) (V m c main_v14) = _
  rw [V_main_arg0, Cert.KernelIdeal.HostPart.V_hn, Cert.KernelIdeal.HostPart.V_w1, Cert.KernelIdeal.HostPart.V_w2]

end Cert.Bridge

end
-- ==== Proof.lean ====
/-
  A graph layer: the neighbour sum `hn` (each edge adds its source node's row of `h`, scaled by the edge's weight, into its
  destination node's row) and the output `lrelu ((h + hn) · W1ᵀ) + lrelu ((h * hn) · W2ᵀ)`. The kernel program computes the
  neighbour sum and the transposed weights on the host and the output in one kernel over 25 blocks of 2000 rows, the
  operands of its two matrix products rounded to bf16; the reference computes everything on the host. Over the extended
  reals the rounding is the identity, a matrix product into a zero accumulator is the product, and a block of rows of
  the output depends on the same block of rows of `h` and `hn` only: the two programs end with equal results.

  The first result, the neighbour sum, is the same term of the arguments in both programs. The second is, in both, the
  specification's output (Proof/Spec.lean) of `h`, that neighbour sum and the transposed weights: for the kernel by its
  payload (Proof/KernelPayload.lean) and the cover of the rows by the blocks (Proof/KernelBlocks.lean) over what its
  host operations leave (Proof/KernelHost.lean), for the reference by its run (Proof/RefRun.lean) read at an entry
  (Proof/RefValue.lean). No finiteness is needed: only `0 + x = x` enters. The ideal pass rewrote nothing, so
  `preserves` is `True`.
-/
import proofs.«144466_j84756884619934_1_alg».proof.Defs
import proofs.«144466_j84756884619934_1_alg».proof.Proof.Gen.Kernel
import proofs.«144466_j84756884619934_1_alg».proof.Proof.Gen.Kernel.Frame
import proofs.«144466_j84756884619934_1_alg».proof.Proof.Gen.KernelIdeal
import proofs.«144466_j84756884619934_1_alg».proof.Proof.Gen.KernelIdeal.Frame
import proofs.«144466_j84756884619934_1_alg».proof.Proof.Gen.KernelIdeal.Value
import proofs.«144466_j84756884619934_1_alg».proof.Proof.Gen.ReferenceIdeal
import proofs.«144466_j84756884619934_1_alg».proof.Proof.Gen.Pre_finite_inputs
import proofs.«144466_j84756884619934_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- From memories that agree on the arguments both programs end with the neighbour sum in the first result and the
    specification's output of `h`, that sum and the transposed weights in the second. -/
theorem algebraic : Cert.algebraic_KernelIdeal_ReferenceIdeal := by
  intro m ρ m' ρ' _ hagree
  refine ⟨fun c => Cert.KernelIdeal.Gen.V m c Cert.KernelIdeal.main_v12, fun c => Cert.KernelIdeal.Blocks.result m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · show _ = Cert.KernelIdeal.Gen.V m c Cert.KernelIdeal.main_v12
    rw [(hagree c).1, (hagree c).2.1, (hagree c).2.2.2.2.1, (hagree c).2.2.2.2.2, Cert.KernelIdeal.HostPart.V_hn]
    exact Cert.Bridge.neighbourSum_same _ _ _ _
  · show _ = Cert.KernelIdeal.Blocks.result m c
    rw [Cert.ReferenceIdeal.RefValue.biInteraction_eq, (hagree c).1, (hagree c).2.1, (hagree c).2.2.1, (hagree c).2.2.2.1,
      (hagree c).2.2.2.2.1, (hagree c).2.2.2.2.2, Cert.Bridge.result_eq, Cert.Bridge.neighbourSum_same]
    exact congrArg₂ (Cert.BiInteraction.out (n := 50000) _ _) (Cert.Bridge.transposed_same (F := Ideal) _) (Cert.Bridge.transposed_same (F := Ideal) _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
